-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S96x512x512 : Shape := ⟨3, ![96, 512, 512]⟩
abbrev S96x256x1024 : Shape := ⟨3, ![96, 256, 1024]⟩
abbrev S4x512x512 : Shape := ⟨3, ![4, 512, 512]⟩
abbrev S4x256x1024 : Shape := ⟨3, ![4, 256, 1024]⟩
abbrev S4x256x2x256x2 : Shape := ⟨5, ![4, 256, 2, 256, 2]⟩
abbrev S4x256x256x2x2 : Shape := ⟨5, ![4, 256, 256, 2, 2]⟩
abbrev S32x3x262144 : Shape := ⟨3, ![32, 3, 262144]⟩
abbrev S32x786432 : Shape := ⟨2, ![32, 786432]⟩

abbrev nBuf : Space → Nat
  | .hbm => 5
  | .vmem => 4
  | .smem => 0
  | _ => 0

abbrev bufTy : (tb : Table) → Fin (tcTables nBuf tb) → BufTy
  | .hbm, ⟨0, _⟩ => ⟨S32x3x512x512, .f32⟩
  | .hbm, ⟨1, _⟩ => ⟨S96x512x512, .f32⟩
  | .hbm, ⟨2, _⟩ => ⟨S96x256x1024, .f32⟩
  | .hbm, ⟨3, _⟩ => ⟨S32x3x262144, .f32⟩
  | .hbm, ⟨4, _⟩ => ⟨S32x786432, .f32⟩
  | .local _ .vmem, ⟨0, _⟩ => ⟨S4x512x512, .f32⟩
  | .local _ .vmem, ⟨1, _⟩ => ⟨S4x512x512, .f32⟩
  | .local _ .vmem, ⟨2, _⟩ => ⟨S4x256x1024, .f32⟩
  | .local _ .vmem, ⟨3, _⟩ => ⟨S4x256x1024, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x3x512x512_S96x512x512 : S32x3x512x512.ShapeCasts S96x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  shapeCasts_S4x512x512_S4x256x2x256x2 : S4x512x512.ShapeCasts S4x256x2x256x2
  transposes_S4x256x2x256x2_p0_1_3_2_4_S4x256x256x2x2 : S4x256x2x256x2.Transposes [0, 1, 3, 2, 4] S4x256x256x2x2
  shapeCasts_S4x256x256x2x2_S4x256x1024 : S4x256x256x2x2.ShapeCasts S4x256x1024
  inb_S4x256x1024_S4x256x1024_0_0_0 : ∀ a, (![0, 0, 0] : Fin 3 → Nat) a + S4x256x1024.size a ≤ S4x256x1024.size a
  h_S4x256x1024 : 0 < S4x256x1024.numel
  shapeCasts_S96x256x1024_S32x3x262144 : S96x256x1024.ShapeCasts S32x3x262144
  shapeCasts_S32x3x262144_S32x786432 : S32x3x262144.ShapeCasts S32x786432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S96x512x512.size a
  hwx0_0 : ∀ i : grid0.Coords, EltTy.bits .f32 = 32 ∨ (Rect.block (s := S96x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1024.size a ≤ S96x256x1024.size a
  hwx0_1 : ∀ i : grid0.Coords, EltTy.bits .f32 = 32 ∨ (Rect.block (s := S96x256x1024) S4x256x1024.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x3x256x2x256x2 : Shape := ⟨6, ![32, 3, 256, 2, 256, 2]⟩
abbrev S32x3x256x256x2x2 : Shape := ⟨6, ![32, 3, 256, 256, 2, 2]⟩
abbrev S32x786432 : Shape := ⟨2, ![32, 786432]⟩

abbrev nBuf : Space → Nat
  | .hbm => 4
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x256x2x256x2, .f32⟩
  | .hbm, ⟨2, _⟩ => ⟨S32x3x256x256x2x2, .f32⟩
  | .hbm, ⟨3, _⟩ => ⟨S32x786432, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S32x3x512x512_S32x3x256x2x256x2 : S32x3x512x512.ShapeCasts S32x3x256x2x256x2
  transposes_S32x3x256x2x256x2_S32x3x256x256x2x2_0_1_2_4_3_5 : S32x3x256x2x256x2.Transposes [0, 1, 2, 4, 3, 5] S32x3x256x256x2x2
  shapeCasts_S32x3x256x256x2x2_S32x786432 : S32x3x256x256x2x2.ShapeCasts S32x786432

variable [Facts₀]

class Facts : Prop extends Facts₀ where

variable [Facts]
-- ==== Proof.Body.lean ====
/-
  The kernel body's stored value at an index.

  The body views its [4, 512, 512] block as [4, 256, 2, 256, 2] (q, i, r, jj, s), swaps r and jj, and flattens the
  last three axes: [4, 256, 256, 2, 2] to [4, 256, 1024].  Read at (q, i, l) from the outside in: the last cast reads the
  rank-5 index with the same row-major position, (q, i, l / 4, l / 2 % 2, l % 2); the transpose reads
  (q, i, l / 2 % 2, l / 4, l % 2); the first cast reads the block at the rank-3 index with that row-major position,
  (q, 2 i + l / 2 % 2, 2 (l / 4) + l % 2).
-/
import proofs.«158779_j13821204759252_2_alg».proof.Proof.Gen.KernelIdeal.Skeleton
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- The stored value at `(q, i, l)` is the loaded block at `(q, 2 i + l / 2 % 2, 2 (l / 4) + l % 2)`. -/
theorem pay_apply (x0 : Vec F S4x512x512 .f32) (q : Fin 4) (i : Fin 256) (l : Fin 1024) :
    k0_pay1 x0 (ix3 q i l)
      = x0 (ix3 q (⟨2 * i.val + l.val / 2 % 2, by have := i.isLt; omega⟩ : Fin 512)
          (⟨2 * (l.val / 4) + l.val % 2, by have := l.isLt; omega⟩ : Fin 512)) := by
  have hi : i.val < 256 := i.isLt
  have hl : l.val < 1024 := l.isLt
  unfold k0_pay1
  refine (shapeCast_apply _ shapeCasts_S4x256x256x2x2_S4x256x1024 (ix3 q i l)
    (ix5 q i (⟨l.val / 4, by omega⟩ : Fin 256) (⟨l.val / 2 % 2, by omega⟩ : Fin 2) (⟨l.val % 2, by omega⟩ : Fin 2)) ?_).trans ?_
  · rw [Shape.rowMajor_val_five, Shape.rowMajor_val_three]
    show (((q.val * 256 + i.val) * 256 + l.val / 4) * 2 + l.val / 2 % 2) * 2 + l.val % 2 = (q.val * 256 + i.val) * 1024 + l.val
    omega
  refine (transpose_apply [0, 1, 3, 2, 4] _ transposes_S4x256x2x256x2_p0_1_3_2_4_S4x256x256x2x2 _
    (ix5 q i (⟨l.val / 2 % 2, by omega⟩ : Fin 2) (⟨l.val / 4, by omega⟩ : Fin 256) (⟨l.val % 2, by omega⟩ : Fin 2))
    (fun b => match b with
      | ⟨0, _⟩ => rfl
      | ⟨1, _⟩ => rfl
      | ⟨2, _⟩ => rfl
      | ⟨3, _⟩ => rfl
      | ⟨4, _⟩ => rfl)).trans ?_
  refine (shapeCast_apply _ shapeCasts_S4x512x512_S4x256x2x256x2 _
    (ix3 q (⟨2 * i.val + l.val / 2 % 2, by omega⟩ : Fin 512) (⟨2 * (l.val / 4) + l.val % 2, by omega⟩ : Fin 512)) ?_).trans ?_
  · rw [Shape.rowMajor_val_three, Shape.rowMajor_val_five]
    show (q.val * 512 + (2 * i.val + l.val / 2 % 2)) * 512 + (2 * (l.val / 4) + l.val % 2)
      = (((q.val * 256 + i.val) * 2 + l.val / 2 % 2) * 256 + l.val / 4) * 2 + l.val % 2
    omega
  rw [shapeCast_self]

end Cert.KernelIdeal.Body

end
-- ==== Proof.Spec.lean ====
/-
  The 2x2 block flatten as one function of the argument array.

  Writing a result position as (b, n) with n = c * 262144 + i * 1024 + l and l = jj * 4 + r * 2 + s
  (c < 3 the channel, i < 256 the row pair, jj < 256 the column pair, r and s < 2 the row and the column inside
  the 2x2 block), the result holds the input at (b, c, 2 i + r, 2 jj + s).  Nothing is computed: the result is
  the argument read through this index map, so the statement holds over any type of entries.
-/
import Idealize.ShloMosaic.Lib.ValueIdx

namespace Cert.Flatten

open Idealize.ShloMosaic Idealize.ShloMosaic.ValueIdx

/-- The channel of a flat position: `n / 262144`. -/
def chan (n : Fin 786432) : Fin 3 := ⟨n.val / 262144, by have := n.isLt; omega⟩

/-- The input row of a flat position: twice the row pair plus the row inside the 2x2 block. -/
def row (n : Fin 786432) : Fin 512 := ⟨2 * (n.val % 262144 / 1024) + n.val % 1024 / 2 % 2, by have := n.isLt; omega⟩

/-- The input column of a flat position: twice the column pair plus the column inside the 2x2 block. -/
def col (n : Fin 786432) : Fin 512 := ⟨2 * (n.val % 1024 / 4) + n.val % 2, by have := n.isLt; omega⟩

/-- Where the result position `(b, n)` reads the argument. -/
def src (j : (⟨2, ![32, 786432]⟩ : Shape).Idx) : (⟨4, ![32, 3, 512, 512]⟩ : Shape).Idx :=
  ix4 (j 0 : Fin 32) (chan (j 1)) (row (j 1)) (col (j 1))

/-- The flattened array: the argument read through `src`. -/
def flat {α : Type} (x : (⟨4, ![32, 3, 512, 512]⟩ : Shape).Idx → α) : (⟨2, ![32, 786432]⟩ : Shape).Idx → α :=
  fun j => x (src j)

/-- The same reshuffle on the arrays the kernel's region works on, [96, 512, 512] to [96, 256, 1024] (the batch and channel axes
    merged into one leading axis `q`): position `(q, i, l)` reads `(q, 2 i + l / 2 % 2, 2 (l / 4) + l % 2)`. -/
def flatRows {α : Type} (X : (⟨3, ![96, 512, 512]⟩ : Shape).Idx → α) : (⟨3, ![96, 256, 1024]⟩ : Shape).Idx → α :=
  fun y => X (ix3 (y 0 : Fin 96)
    (⟨2 * (y 1).val + (y 2).val / 2 % 2, by have h : (y 1).val < 256 := (y 1).isLt; omega⟩ : Fin 512)
    (⟨2 * ((y 2).val / 4) + (y 2).val % 2, by have h : (y 2).val < 1024 := (y 2).isLt; omega⟩ : Fin 512))

end Cert.Flatten
-- ==== Proof.Regroup.lean ====
/-
  The kernel's three stages compose to the flattened array.

  The kernel merges batch and channel (`[32, 3, 512, 512]` to `[96, 512, 512]`, q = 3 b + c), reshuffles each of the 96
  images (`flatRows`), and splits the result back: `[96, 256, 1024]` to `[32, 3, 262144]` to `[32, 786432]`.  Read at a
  result position (b, n) from the outside in, every reshape keeps the row-major position: (b, n) is
  (b, n / 262144, n % 262144), which is (3 b + n / 262144, n % 262144 / 1024, n % 1024); the reshuffle reads its row
  2 (n % 262144 / 1024) + n % 1024 / 2 % 2 and column 2 (n % 1024 / 4) + n % 2 of image q; and the first reshape reads the
  argument at (b, n / 262144, row, column), which is `src (b, n)`.
-/
import proofs.«158779_j13821204759252_2_alg».proof.Proof.Spec
import Idealize.ShloMosaic.Lib.Pipeline.Value

namespace Cert.Flatten

open Idealize.ShloMosaic Idealize.ShloMosaic.ValueIdx

/-- Merge, reshuffle by image, split: the flattened array. -/
theorem split_flatRows_merge {α : Type} (x : (⟨4, ![32, 3, 512, 512]⟩ : Shape).Idx → α)
    (h1 : (⟨4, ![32, 3, 512, 512]⟩ : Shape).ShapeCasts ⟨3, ![96, 512, 512]⟩)
    (h2 : (⟨3, ![96, 256, 1024]⟩ : Shape).ShapeCasts ⟨3, ![32, 3, 262144]⟩)
    (h3 : (⟨3, ![32, 3, 262144]⟩ : Shape).ShapeCasts ⟨2, ![32, 786432]⟩) :
    shapeCast ⟨2, ![32, 786432]⟩ (shapeCast ⟨3, ![32, 3, 262144]⟩ (flatRows (shapeCast ⟨3, ![96, 512, 512]⟩ x h1)) h2) h3 = flat x := by
  funext j
  have hb : (j 0).val < 32 := (j 0).isLt
  have hn : (j 1).val < 786432 := (j 1).isLt
  refine (shapeCast_apply _ h3 j
    (ix3 (j 0 : Fin 32) (chan (j 1)) (⟨(j 1).val % 262144, by omega⟩ : Fin 262144)) ?_).trans ?_
  · rw [Shape.rowMajor_val_three, Shape.rowMajor_val_two]
    show ((j 0).val * 3 + (j 1).val / 262144) * 262144 + (j 1).val % 262144 = (j 0).val * 786432 + (j 1).val
    omega
  refine (shapeCast_apply _ h2 _
    (ix3 (⟨(j 0).val * 3 + (j 1).val / 262144, by omega⟩ : Fin 96) (⟨(j 1).val % 262144 / 1024, by omega⟩ : Fin 256)
      (⟨(j 1).val % 1024, by omega⟩ : Fin 1024)) ?_).trans ?_
  · rw [Shape.rowMajor_val_three, Shape.rowMajor_val_three]
    show (((j 0).val * 3 + (j 1).val / 262144) * 256 + (j 1).val % 262144 / 1024) * 1024 + (j 1).val % 1024
      = ((j 0).val * 3 + (j 1).val / 262144) * 262144 + (j 1).val % 262144
    omega
  unfold flatRows flat
  refine shapeCast_apply _ h1 _ (src j) ?_
  rw [Shape.rowMajor_val_four, Shape.rowMajor_val_three]
  show (((j 0).val * 3 + (j 1).val / 262144) * 512 + (2 * ((j 1).val % 262144 / 1024) + (j 1).val % 1024 / 2 % 2)) * 512
      + (2 * ((j 1).val % 1024 / 4) + (j 1).val % 2)
    = (((j 0).val * 3 + (j 1).val / 262144) * 512 + (2 * ((j 1).val % 262144 / 1024) + (j 1).val % 1024 / 2 % 2)) * 512
      + (2 * ((j 1).val % 1024 / 4) + (j 1).val % 1024 % 2)
  omega

end Cert.Flatten
-- ==== Proof.KernelValue.lean ====
/-
  What the idealized kernel's result array holds after the run.

  The region's input array is the argument with batch and channel merged; grid point t stages images 4 t .. 4 t + 3 of
  it and writes back rows 4 t .. 4 t + 3 of the output array, each image reshuffled by the body; the 24 points' blocks
  tile the 96 images, so the output array ends as the reshuffle of the whole input array.  The two reshapes after the
  region split the leading axis back, and the result is the flattened argument.
-/
import proofs.«158779_j13821204759252_2_alg».proof.Proof.Gen.KernelIdeal.Frame
import proofs.«158779_j13821204759252_2_alg».proof.Proof.Body
import proofs.«158779_j13821204759252_2_alg».proof.Proof.Regroup
import Idealize.ShloMosaic.Lib.Pipeline.Value
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx Cert.Flatten
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- The body's stored value at `y` is the loaded block at any `z` with the reshuffle's coordinates. -/
theorem pay_read (x0 : Vec F S4x512x512 .f32) (y : S4x256x1024.Idx) (z : S4x512x512.Idx)
    (h0 : (z 0).val = (y 0).val) (h1 : (z 1).val = 2 * (y 1).val + (y 2).val / 2 % 2)
    (h2 : (z 2).val = 2 * ((y 2).val / 4) + (y 2).val % 2) : k0_pay1 x0 y = x0 z := by
  obtain ⟨p, q, r, rfl⟩ : ∃ (p : Fin 4) (q : Fin 256) (r : Fin 1024), y = ix3 p q r := ⟨y 0, y 1, y 2, eq_ix3 y⟩
  rw [Body.pay_apply]
  refine congrArg x0 (funext fun a => Fin.ext ?_)
  match a with
  | ⟨0, _⟩ => exact h0.symm
  | ⟨1, _⟩ => exact h1.symm
  | ⟨2, _⟩ => exact h2.symm

/-- Both windows are at block `t` of the leading axis and at block 0 of the other two, at every grid point. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point `t` writes back is block `t` of the reshuffle of the region's input array. -/
theorem flushed_eq (c : Dev nD) (t : Fin cfg0.N) :
    (dats m 0 c).flushed 1 t = ((cfg0.win 1).blk t).view.read (Elt F) (flatRows (V m c main_v0)) := by
  show (cfg0.win 1).cut (grid0.coords t) ((dats m 0 c).after 1 t) = _
  rw [after0_1]
  unfold out0_1
  rw [View.canon_unit_zero zero3]
  simp only [View.ld_unit_zero (S := S4x512x512) zero3]
  obtain ⟨e0, e1, e2, e3, e4, e5⟩ := idx_facts t
  funext y
  have hy0 : (y 0).val < 4 := (y 0).isLt
  have hy1 : (y 1).val < 256 := (y 1).isLt
  have hy2 : (y 2).val < 1024 := (y 2).isLt
  refine (pay_read (iblk m c 0 t) y
    (ix3 (⟨(y 0).val, hy0⟩ : Fin 4) (⟨2 * (y 1).val + (y 2).val / 2 % 2, by omega⟩ : Fin 512)
      (⟨2 * ((y 2).val / 4) + (y 2).val % 2, by omega⟩ : Fin 512)) rfl rfl rfl).trans ?_
  show V m c main_v0 (((cfg0.win 0).blk t).view.emb _) = flatRows (V m c main_v0) (((cfg0.win 1).blk t).view.emb y)
  unfold flatRows
  refine congrArg (V m c main_v0) (funext fun a => Fin.ext ?_)
  match a with
  | ⟨0, _⟩ =>
    show win0_0.index t (0 : Fin 3) * 4 + 1 * (y 0).val = win0_1.index t (0 : Fin 3) * 4 + 1 * (y 0).val
    omega
  | ⟨1, _⟩ =>
    show win0_0.index t (1 : Fin 3) * 512 + 1 * (2 * (y 1).val + (y 2).val / 2 % 2)
      = 2 * (win0_1.index t (1 : Fin 3) * 256 + 1 * (y 1).val) + (win0_1.index t (2 : Fin 3) * 1024 + 1 * (y 2).val) / 2 % 2
    omega
  | ⟨2, _⟩ =>
    show win0_0.index t (2 : Fin 3) * 512 + 1 * (2 * ((y 2).val / 4) + (y 2).val % 2)
      = 2 * ((win0_1.index t (2 : Fin 3) * 1024 + 1 * (y 2).val) / 4) + (win0_1.index t (2 : Fin 3) * 1024 + 1 * (y 2).val) % 2
    omega

/-- An index of the output array is in point `t`'s block iff each coordinate is in the block's range on its axis. -/
theorem mem_blk (t : Fin cfg0.N) (i : S96x256x1024.Idx) :
    i ∈ ((cfg0.win 1).blk t).view.set ↔ ∀ a : Fin 3, win0_1.index t a * S4x256x1024.size a ≤ (i a).val
      ∧ (i a).val < win0_1.index t a * S4x256x1024.size a + S4x256x1024.size a := by
  show i ∈ ((View.whole main_v1).slice (win0_1.rect t)).set ↔ _
  rw [View.set_slice_whole, Rect.mem_set_unit]
  exact Iff.rfl

/-- Image `q` of the output array is written back by point `q / 4`. -/
theorem cover (i : S96x256x1024.Idx) :
    ∃ t : Fin cfg0.N, (cfg0.win 1).flush t = true ∧ i ∈ ((cfg0.win 1).blk t).view.set := by
  have h0 : (i 0).val < 96 := (i 0).isLt
  have h1 : (i 1).val < 256 := (i 1).isLt
  have h2 : (i 2).val < 1024 := (i 2).isLt
  have ht : (i 0).val / 4 < 24 := by omega
  obtain ⟨-, -, -, e3, e4, e5⟩ := idx_facts ⟨(i 0).val / 4, ht⟩
  refine ⟨⟨(i 0).val / 4, ht⟩, flush0_1 _, ?_⟩
  rw [mem_blk]
  intro a
  match a with
  | ⟨0, _⟩ =>
    show win0_1.index ⟨(i 0).val / 4, ht⟩ (0 : Fin 3) * 4 ≤ (i 0).val ∧ (i 0).val < win0_1.index ⟨(i 0).val / 4, ht⟩ (0 : Fin 3) * 4 + 4
    rw [e3]; show (i 0).val / 4 * 4 ≤ (i 0).val ∧ (i 0).val < (i 0).val / 4 * 4 + 4; omega
  | ⟨1, _⟩ =>
    show win0_1.index ⟨(i 0).val / 4, ht⟩ (1 : Fin 3) * 256 ≤ (i 1).val ∧ (i 1).val < win0_1.index ⟨(i 0).val / 4, ht⟩ (1 : Fin 3) * 256 + 256
    omega
  | ⟨2, _⟩ =>
    show win0_1.index ⟨(i 0).val / 4, ht⟩ (2 : Fin 3) * 1024 ≤ (i 2).val ∧ (i 2).val < win0_1.index ⟨(i 0).val / 4, ht⟩ (2 : Fin 3) * 1024 + 1024
    omega

/-- The output array after the region: the reshuffle of the region's input array. -/
theorem final (c : Dev nD) : (dats m 0 c).arrAt 1 cfg0.N = flatRows (V m c main_v0) :=
  (dats m 0 c).arrAt_eq_of_cover 1 _ (fun t _ => flushed_eq m c t) cover

/-- The region's input array is the argument with batch and channel merged. -/
theorem V_main_v0 (c : Dev nD) : (V m c main_v0 : S96x512x512.Idx → Elt F .f32)
    = shapeCast S96x512x512 (m ((c : Thread nD τ).loc main_arg0)) shapeCasts_S32x3x512x512_S96x512x512 := by
  show StableHlo.after hostOps0 (fun b => m (c, b)) (Proc.devRef .tc main_v0) = _
  after_results
  rfl

/-- The program's result, after the two reshapes that follow the region: the flattened argument. -/
theorem tail_eq (c : Dev nD) :
    Pipeline.afterTail₀ cfgs (dats m) 0 (V0 m) [hostOps1] c main_v3 = flat (m ((c : Thread nD τ).loc main_arg0)) := by
  unfold Pipeline.afterTail₀
  show StableHlo.after hostOps1 _ (Proc.devRef .tc main_v3) = _
  after_results
  rw [(Pipeline.withArrays_arr spec0 launch0.win.arr_inj c _ _ 1).trans (final m c), V_main_v0]
  exact split_flatRows_merge _ _ _ _

/-- The run of the idealized kernel: the result is the flattened argument, the argument is unchanged. -/
theorem run : θ_run defs (onTc (τ := τ) (main (F := F))) ⟨m, fun _ => 0, ρ⟩ fun r => ∀ c : Dev nD,
      r.2.mem ((c : Thread nD τ).loc main_v3) = flat (m ((c : Thread nD τ).loc main_arg0))
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

end Cert.KernelIdeal.KerValue

end
-- ==== Proof.Reference.lean ====
/-
  The reference computes the flattened array.

  The reference views the argument as [32, 3, 256, 2, 256, 2] (b, c, i, r, jj, s), swaps the two middle axes r and jj,
  and flattens [32, 3, 256, 256, 2, 2] to [32, 786432].  Read at a result position (b, n) from the outside in: the
  last reshape reads the rank-6 index with the same row-major position, (b, c, i, jj, r, s) with
  n = ((((c * 256 + i) * 256 + jj) * 2 + r) * 2 + s; the transpose reads (b, c, i, r, jj, s); the first reshape reads the
  argument at the rank-4 index with that row-major position, (b, c, 2 i + r, 2 jj + s).
-/
import proofs.«158779_j13821204759252_2_alg».proof.Proof.Gen.ReferenceIdeal.Read
import proofs.«158779_j13821204759252_2_alg».proof.Proof.Spec
import Idealize.ShloMosaic.Lib.ValueIdxRank6

noncomputable section

namespace Cert.ReferenceIdeal.RefValue

open Cert.ReferenceIdeal Cert.ReferenceIdeal.Gen Idealize.ShloMosaic Idealize.ShloMosaic.ValueIdx Cert.Flatten

variable {F : FTy → Type} [FloatOps F]

/-- The rank-6 index the last reshape reads at the result position `j = (b, n)`: (b, c, i, jj, r, s). -/
def mid (j : S32x786432.Idx) : S32x3x256x256x2x2.Idx :=
  ix6 (j 0 : Fin 32) (chan (j 1))
    (⟨(j 1).val % 262144 / 1024, by have := (j 1).isLt; omega⟩ : Fin 256)
    (⟨(j 1).val % 1024 / 4, by have := (j 1).isLt; omega⟩ : Fin 256)
    (⟨(j 1).val % 1024 / 2 % 2, by omega⟩ : Fin 2)
    (⟨(j 1).val % 2, by omega⟩ : Fin 2)

/-- The reference's result is the flattened argument. -/
theorem val_eq_flat (x0 : (⟨S32x3x512x512, .f32⟩ : BufTy).Contents (Elt F)) :
    Read.val_main_v2 (F := F) x0 = flat x0 := by
  funext j
  unfold Read.val_main_v2
  have hj : (j 1).val < 786432 := (j 1).isLt
  refine (shapeCast_apply _ shapeCasts_S32x3x256x256x2x2_S32x786432 j (mid j) ?_).trans ?_
  · rw [Shape.rowMajor_val_six, Shape.rowMajor_val_two]
    show ((((((j 0).val * 3 + (j 1).val / 262144) * 256 + (j 1).val % 262144 / 1024) * 256 + (j 1).val % 1024 / 4) * 2
      + (j 1).val % 1024 / 2 % 2) * 2 + (j 1).val % 2) = (j 0).val * 786432 + (j 1).val
    omega
  rw [Read.val_main_v1_apply]
  unfold Read.val_main_v0
  refine shapeCast_apply _ shapeCasts_S32x3x512x512_S32x3x256x2x256x2 _ (src j) ?_
  rw [Shape.rowMajor_val_six, Shape.rowMajor_val_four]
  show (((j 0).val * 3 + (j 1).val / 262144) * 512 + (2 * ((j 1).val % 262144 / 1024) + (j 1).val % 1024 / 2 % 2)) * 512
      + (2 * ((j 1).val % 1024 / 4) + (j 1).val % 2)
    = ((((((j 0).val * 3 + (j 1).val / 262144) * 256 + (j 1).val % 262144 / 1024) * 2 + (j 1).val % 1024 / 2 % 2) * 256
      + (j 1).val % 1024 / 4) * 2 + (j 1).val % 2)
  omega

end Cert.ReferenceIdeal.RefValue

end
-- ==== Proof.lean ====
/-
  A 2x2 block flatten (space to depth): for x of shape [32, 3, 512, 512],
      out[b, c * 262144 + i * 1024 + jj * 4 + r * 2 + s] = x[b, c, 2 i + r, 2 jj + s].
  No arithmetic is done on the entries: both programs are the argument read through one index map (`Flatten.src`), so
  the two results agree on every extended real, finite or not, and the precondition is never opened.

  The kernel merges batch and channel, reshuffles four images per grid point (reshape, swap of two axes, reshape) and
  splits the leading axis back (KernelValue.lean over Body.lean and Regroup.lean); the reference reshapes to rank 6, swaps
  two axes and flattens (Reference.lean).  Each is shown to be `Flatten.flat` of the argument by following one result
  position through the reshapes, which keep the row-major position, and the transposes, which permute coordinates.

  The three frames are the generated ones (the reference's is its generated run with the result dropped); the kernel
  has no rewritten operation, so it is its own idealization.
-/
import proofs.«158779_j13821204759252_2_alg».proof.Defs
import proofs.«158779_j13821204759252_2_alg».proof.Proof.Gen.Kernel
import proofs.«158779_j13821204759252_2_alg».proof.Proof.Gen.Kernel.Skeleton
import proofs.«158779_j13821204759252_2_alg».proof.Proof.Gen.Kernel.Launch
import proofs.«158779_j13821204759252_2_alg».proof.Proof.Gen.Kernel.Points
import proofs.«158779_j13821204759252_2_alg».proof.Proof.Gen.Kernel.Frame
import proofs.«158779_j13821204759252_2_alg».proof.Proof.Gen.KernelIdeal
import proofs.«158779_j13821204759252_2_alg».proof.Proof.Gen.KernelIdeal.Skeleton
import proofs.«158779_j13821204759252_2_alg».proof.Proof.Gen.KernelIdeal.Launch
import proofs.«158779_j13821204759252_2_alg».proof.Proof.Gen.KernelIdeal.Points
import proofs.«158779_j13821204759252_2_alg».proof.Proof.Gen.KernelIdeal.Frame
import proofs.«158779_j13821204759252_2_alg».proof.Proof.Gen.ReferenceIdeal
import proofs.«158779_j13821204759252_2_alg».proof.Proof.Gen.Pre_finite_inputs
import proofs.«158779_j13821204759252_2_alg».proof.Proof.Gen.ReferenceIdeal.Run
import proofs.«158779_j13821204759252_2_alg».proof.Proof.Gen.ReferenceIdeal.Read
import proofs.«158779_j13821204759252_2_alg».proof.Proof.KernelValue
import proofs.«158779_j13821204759252_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both results are the flattened argument, and the two arguments agree. -/
theorem algebraic : Cert.algebraic_KernelIdeal_ReferenceIdeal := by
  intro m ρ m' ρ' _ hagree
  refine ⟨fun c => Cert.Flatten.flat (m ((c.tc : Thread Cert.KernelIdeal.nD Cert.KernelIdeal.τ).loc Cert.KernelIdeal.main_arg0)),
    Cert.KernelIdeal.KerValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.val_eq_flat, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
